-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16384x1024 : Shape := ⟨2, ![16384, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S1024x1024, .bf16⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x1024_S1024_d1 : S1024x1024.ReducesTo [1] S1024
  h_S_ : 0 < S_.numel
  shapeCasts_S1024_S1x1024 : S1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1024x1024_S1024_d1 : S1024x1024.ReducesTo [1] S1024
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384 : S_.BroadcastsInDim S16384 (![] : Fin 0 → Fin S16384.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.Spec.lean ====
/-
  The function both programs compute, written once over the two argument arrays.

  q is the array of 16384 query rows and p the array of 1024 prototype rows, each row of 1024 features. For a query
  row n and a prototype row j the score is minus the squared distance between the two rows, expanded as
      2 (q_n . p_j) - |q_n|^2 - |p_j|^2,
  and the result's row n is the softmax of the 1024 scores of row n: each score minus the row's maximum, exponentiated,
  divided by the sum of the row's exponentials.

  The kernel forms the score as (2 (q_n . p_j) - |q_n|^2) - |p_j|^2 (`scoreK`); the reference forms the squared distance
  (|q_n|^2 - 2 (q_n . p_j)) + |p_j|^2 and negates it (`scoreR`). On the extended reals the two differ when infinities
  meet; when every entry of q and p is a real number all three sums are real and the two agree (`scoreR_eq_scoreK`),
  by the ring laws of the reals.
-/
import Idealize.ShloMosaic.PureOps.Ideal
import Idealize.ShloMosaic.Lib.ValueIdx

noncomputable section

namespace Cert.Proto

open Idealize.ShloMosaic Idealize.ShloMosaic.ValueIdx

/-- 16384 rows of 1024 entries; 1024 rows of 1024 entries; one row of 1024 entries. -/
abbrev QArr : Type := (⟨2, ![16384, 1024]⟩ : Shape).Idx → EReal
abbrev PArr : Type := (⟨2, ![1024, 1024]⟩ : Shape).Idx → EReal
abbrev RowArr : Type := (⟨2, ![1, 1024]⟩ : Shape).Idx → EReal

/-- The factor 2 and the maximum's starting value, as the words both programs spell. -/
abbrev two : EReal := Ideal.ofBits .f32 0x40000000#32
abbrev negInf : EReal := Ideal.ofBits .f32 0xFF800000#32

/-- The word 0x40000000 denotes the real number 2. -/
theorem two_eq : two = ((2 : ℝ) : EReal) := by
  simp [two, Ideal.ofBits, Ideal.ieee, -EReal.coe_mul]; norm_num

/-- The word 0xFF800000 denotes minus infinity, the least extended real. -/
theorem negInf_eq : negInf = ⊥ := by
  simp [negInf, Ideal.ofBits, Ideal.ieee]

/-- The word 0x00000000 denotes zero. -/
theorem zero_eq : Ideal.ofBits .f32 0x00000000#32 = 0 := by
  simp [Ideal.ofBits, Ideal.ieee]

/-- The inner product of query row n with prototype row j, and the squared lengths of the two rows. -/
def dot (q : QArr) (p : PArr) (n : Fin 16384) (j : Fin 1024) : EReal := ∑ d : Fin 1024, q (ix2 n d) * p (ix2 j d)
def qsq (q : QArr) (n : Fin 16384) : EReal := ∑ d : Fin 1024, q (ix2 n d) * q (ix2 n d)
def psq (p : PArr) (j : Fin 1024) : EReal := ∑ d : Fin 1024, p (ix2 j d) * p (ix2 j d)

/-- The score as the kernel arranges it. -/
def scoreK (q : QArr) (p : PArr) (n : Fin 16384) (j : Fin 1024) : EReal := (two * dot q p n j - qsq q n) - psq p j
/-- The score as the reference arranges it: the squared distance, negated. -/
def scoreR (q : QArr) (p : PArr) (n : Fin 16384) (j : Fin 1024) : EReal := -((qsq q n - two * dot q p n j) + psq p j)

/-- The largest of a row's 1024 scores, folded from minus infinity. -/
def rowMax (f : Fin 1024 → EReal) : EReal := (Finset.univ : Finset (Fin 1024)).fold max negInf f

/-- The softmax of a row of 1024 scores at column j. -/
def soft (f : Fin 1024 → EReal) (j : Fin 1024) : EReal :=
  Ideal.div (Ideal.exp (f j - rowMax f)) (∑ k : Fin 1024, Ideal.exp (f k - rowMax f))

/-- The result array: row n is the softmax of the kernel-arranged scores of row n. -/
def G (q : QArr) (p : PArr) : QArr := fun i => soft (scoreK q p (i 0)) (i 1)

theorem G_apply (q : QArr) (p : PArr) (n : Fin 16384) (j : Fin 1024) : G q p (ix2 n j) = soft (scoreK q p n) j := rfl

/-- A finite sum of reals, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- When every entry of both arrays is a real number the two arrangements of the score agree: the three sums are
    real, and -((a - b) + c) = (b - a) - c in the reals. -/
theorem scoreR_eq_scoreK (q : QArr) (p : PArr) (hq : ∀ i, ∃ r : ℝ, q i = (r : EReal)) (hp : ∀ i, ∃ r : ℝ, p i = (r : EReal))
    (n : Fin 16384) : scoreR q p n = scoreK q p n := by
  choose qr hqr using hq
  choose pr hpr using hp
  funext j
  have hd : dot q p n j = ((∑ d : Fin 1024, qr (ix2 n d) * pr (ix2 j d) : ℝ) : EReal) := by
    unfold dot; rw [coe_sum]; exact Finset.sum_congr rfl fun d _ => by rw [hqr, hpr, EReal.coe_mul]
  have hqq : qsq q n = ((∑ d : Fin 1024, qr (ix2 n d) * qr (ix2 n d) : ℝ) : EReal) := by
    unfold qsq; rw [coe_sum]; exact Finset.sum_congr rfl fun d _ => by rw [hqr, EReal.coe_mul]
  have hpp : psq p j = ((∑ d : Fin 1024, pr (ix2 j d) * pr (ix2 j d) : ℝ) : EReal) := by
    unfold psq; rw [coe_sum]; exact Finset.sum_congr rfl fun d _ => by rw [hpr, EReal.coe_mul]
  unfold scoreR scoreK
  rw [hd, hqq, hpp, two_eq]
  generalize (∑ d : Fin 1024, qr (ix2 n d) * pr (ix2 j d)) = a
  generalize (∑ d : Fin 1024, qr (ix2 n d) * qr (ix2 n d)) = b
  generalize (∑ d : Fin 1024, pr (ix2 j d) * pr (ix2 j d)) = c
  rw [← EReal.coe_mul, ← EReal.coe_sub, ← EReal.coe_add, ← EReal.coe_neg, ← EReal.coe_sub, ← EReal.coe_sub]
  exact congrArg _ (by ring)

end Cert.Proto

end
-- ==== Proof.RefSide.lean ====
/-
  The reference, read at an index. Its result at (n, j) is the softmax, at column j, of row n of the scores as the
  reference arranges them: the squared distance |q_n|^2 - 2 (q_n . p_j) + |p_j|^2, negated. Each of its sums starts
  from the word for zero, which adds nothing; its row maximum is a fold of max from minus infinity over the 1024
  columns, taken once more against minus infinity, which changes nothing.
-/
import proofs.«124861_j13005160972748_2_alg».proof.Proof.Gen.ReferenceIdeal.Read
import proofs.«124861_j13005160972748_2_alg».proof.Proof.Spec
import Idealize.ShloMosaic.PureOps.Ideal.Laws

noncomputable section

namespace Cert.Proto.Ref

open Idealize.ShloMosaic Idealize.ShloMosaic.ValueIdx Cert.ReferenceIdeal Cert.ReferenceIdeal.Gen Cert.ReferenceIdeal.Read Cert.Proto

variable (x0 : (⟨S16384x1024, .f32⟩ : BufTy).Contents (Elt Ideal)) (x1 : (⟨S1024x1024, .f32⟩ : BufTy).Contents (Elt Ideal))

/-- The negated squared distance at (n, j): the three sums over the feature axis, each read at the rows n and j. -/
theorem score_apply (n : Fin 16384) (j : Fin 1024) :
    val_main_v13 (F := Ideal) x0 x1 (ix2 n j) = scoreR x0 x1 n j := by
  have eq : ∀ k : Fin 1024, idx_main_v1 (idx_main_v2 (idx_main_v8 (ix2 n j))) k = ix2 n k :=
    fun k => funext fun a => Fin.ext (by match a with | ⟨0, _⟩ => rfl | ⟨1, _⟩ => rfl)
  have el : ∀ k : Fin 1024, lidx_main_v5 (ix2 n j) k = ix2 n k :=
    fun k => funext fun a => Fin.ext (by match a with | ⟨0, _⟩ => rfl | ⟨1, _⟩ => rfl)
  have er : ∀ k : Fin 1024, ridx_main_v5 (ix2 n j) k = ix2 j k :=
    fun k => funext fun a => Fin.ext (by match a with | ⟨0, _⟩ => rfl | ⟨1, _⟩ => rfl)
  have ep : ∀ k : Fin 1024, idx_main_v4 (idx_main_v10 (idx_main_v11 (ix2 n j))) k = ix2 j k :=
    fun k => funext fun a => Fin.ext (by match a with | ⟨0, _⟩ => rfl | ⟨1, _⟩ => rfl)
  rw [val_main_v13_apply, val_main_v12_apply, val_main_v9_apply, val_main_v8_apply, val_main_v2_apply, val_main_v1_apply,
    val_main_v7_apply, val_main_v6_apply, val_main_v5_apply, val_main_v11_apply, val_main_v10_apply, val_main_v4_apply]
  simp only [eq, el, er, ep, val_main_v0_apply, val_main_v3_apply, val_main_cst_apply, val_main_cst_0_apply, val_main_cst_1_apply,
    Ideal.hostNegf_def, Ideal.negf_def, Ideal.addf_def, Ideal.subf_def, Ideal.mulf_def, Ideal.ofBits_def, zero_eq, zero_add]
  rfl

/-- The row maximum of row n: the fold of max from minus infinity over the row's scores. -/
theorem rowmax_apply (n : Fin 16384) : val_main_v16 (F := Ideal) x0 x1 (ix1 n) = rowMax (scoreR x0 x1 n) := by
  have hR : S16384x1024.Reduces [1] S16384 := by decide
  have hl : ∀ k : Fin (S16384x1024.size 1), hR.lift (ix1 n) k = ix2 n (⟨k.val, k.isLt⟩ : Fin 1024) :=
    fun k => funext fun c => Fin.ext (by fin_cases c <;> rfl)
  have hf : (val_main_v13 (F := Ideal) x0 x1 ∘ hR.lift (ix1 n)) = fun k : Fin 1024 => scoreR x0 x1 n k :=
    funext fun k => (congrArg (val_main_v13 (F := Ideal) x0 x1) (hl k)).trans (score_apply x0 x1 n ⟨k.val, k.isLt⟩)
  have hb : ∀ y : EReal, max negInf y = y := fun y => by rw [negInf_eq]; exact max_eq_right bot_le
  have hfold := Host.reduce_eq_fold_single (FloatOps.maximumf (F := Ideal) (φ := .f32))
    (val_main_v13 (F := Ideal) x0 x1 : FVec Ideal S16384x1024 .f32) (val_main_cst_2 (F := Ideal) : FVec Ideal S_ .f32)
    reducesTo_S16384x1024_S16384_d1 hR h_S_ (ix1 n)
  rw [val_main_v16_apply, val_main_v15_apply, val_main_cst_3_apply]
  unfold val_main_v14
  refine (hb _).trans (hfold.trans ?_)
  exact congrArg (fun f => Finset.fold max negInf f (Finset.univ : Finset (Fin 1024))) hf

/-- The exponential at (n, j): of the score less the row's maximum. -/
theorem exp_apply (n : Fin 16384) (j : Fin 1024) :
    val_main_v20 (F := Ideal) x0 x1 (ix2 n j) = Ideal.exp (scoreR x0 x1 n j - rowMax (scoreR x0 x1 n)) := by
  have e17 : idx_main_v17 (idx_main_v18 (ix2 n j)) = ix1 n :=
    funext fun a => Fin.ext (by match a with | ⟨0, _⟩ => rfl)
  rw [val_main_v20_apply, val_main_v19_apply, val_main_v18_apply, val_main_v17_apply, e17, score_apply, rowmax_apply]
  rfl

/-- The row's sum of exponentials. -/
theorem sum_apply (n : Fin 16384) :
    val_main_v21 (F := Ideal) x0 x1 (ix1 n) = ∑ k : Fin 1024, Ideal.exp (scoreR x0 x1 n k - rowMax (scoreR x0 x1 n)) := by
  rw [val_main_v21_apply, val_main_cst_4_apply]
  show Ideal.ofBits .f32 0x00000000#32 + _ = _
  rw [zero_eq, zero_add]
  refine Finset.sum_congr rfl fun k _ => ?_
  rw [show idx_main_v21 (ix1 n) k = ix2 n k from
    funext fun a => Fin.ext (by match a with | ⟨0, _⟩ => rfl | ⟨1, _⟩ => rfl)]
  exact exp_apply x0 x1 n k

/-- The reference's result array: row n is the softmax of the reference-arranged scores of row n. -/
theorem result_eq : val_main_v24 (F := Ideal) x0 x1 = fun i => soft (scoreR x0 x1 (i 0)) (i 1) := by
  funext i
  obtain ⟨n, j, rfl⟩ : ∃ (n : Fin 16384) (j : Fin 1024), i = ix2 n j := ⟨i 0, i 1, eq_ix2 i⟩
  have e22 : idx_main_v22 (idx_main_v23 (ix2 n j)) = ix1 n :=
    funext fun a => Fin.ext (by match a with | ⟨0, _⟩ => rfl)
  rw [val_main_v24_apply, val_main_v23_apply, val_main_v22_apply, e22, exp_apply, sum_apply]
  rfl

end Cert.Proto.Ref

end
-- ==== Proof.Finite.lean ====
/-
  What the precondition gives. It says, of each argument array, that every entry's absolute value is below plus
  infinity. An extended real with that property is neither infinity, so it is a real number. Hence under the
  precondition every entry of both arrays is a real number: the hypothesis under which the two arrangements of the
  score agree.
-/
import proofs.«124861_j13005160972748_2_alg».proof.Pre_finite_inputs
import proofs.«124861_j13005160972748_2_alg».proof.Proof.Gen.Pre_finite_inputs
import Idealize.ShloMosaic.Lib.ReduceAll
import Idealize.ShloMosaic.Lib.ValueIdx
import Idealize.ShloMosaic.PureOps.Ideal

noncomputable section

namespace Cert.Proto.Finite

open Idealize.ShloMosaic Cert.Pre_finite_inputs

/-- A rank-0 array has one index. -/
instance : Subsingleton S_.Idx := ⟨fun _ _ => funext fun d => d.elim0⟩

/-- The word 0x7F800000 denotes plus infinity. -/
theorem posInf_eq : Ideal.ofBits .f32 0x7F800000#32 = ⊤ := by
  simp [Ideal.ofBits, Ideal.ieee]

/-- An extended real whose absolute value max x (-x) is below plus infinity is a real number. -/
theorem real_of_abs_lt (x : EReal) (h : Ideal.cmp .olt (max x (-x)) (Ideal.ofBits .f32 0x7F800000#32) = 1#1) :
    ∃ r : ℝ, x = (r : EReal) := by
  rw [posInf_eq] at h
  induction x using EReal.rec with
  | bot => simp [Ideal.cmp] at h
  | top => simp [Ideal.cmp] at h
  | coe r => exact ⟨r, rfl⟩

/-- Under the precondition every entry of both argument arrays is a real number. -/
theorem entries_real [Facts] (x : FVec Ideal S16384x1024 .f32) (y : FVec Ideal S1024x1024 .f32)
    (h : fn (F := Ideal) x y = fun _ => 1#1) :
    (∀ i, ∃ r : ℝ, x i = (r : EReal)) ∧ (∀ i, ∃ r : ℝ, y i = (r : EReal)) := by
  have h0 := congrFun h ValueIdx.ix0
  dsimp only [fn] at h0
  obtain ⟨hx, hy⟩ := IntOp.andi_eq_one.1 h0
  exact ⟨fun i => real_of_abs_lt _ (Host.reduce_andi_all _ _ _ _ _ hx i),
    fun i => real_of_abs_lt _ (Host.reduce_andi_all _ _ _ _ _ hy i)⟩

end Cert.Proto.Finite

end
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Payload.lean ====
/-
  The kernel's body, read at an index. At one grid point the body holds a block of 1024 query rows (1024 features
  each), all 1024 prototype rows, and the one row of the prototypes' squared lengths. What it stores at (a, b) is the
  softmax, at column b, of the row of scores of query row a of the block:
      score(a, j) = (2 * sum_d x(a, d) * p(j, d) - sum_d x(a, d)^2) - plen(j).
  The row sums and the row maximum are reductions over the second axis whose vector of row results is viewed as a
  column and spread over the 1024 columns; the product contracts the second axis of both operands into a zero
  accumulator; the squared lengths' row is spread over the 1024 rows. Changing the float format of x and of p does
  nothing to the values.
-/
import proofs.«124861_j13005160972748_2_alg».proof.Proof.Gen.KernelIdeal.Skeleton
import proofs.«124861_j13005160972748_2_alg».proof.Proof.Spec
import proofs.«124861_j13005160972748_2_alg».proof.Proof.LibKeepdims
import Idealize.ShloMosaic.PureOps.Ideal.Laws
import Idealize.ShloMosaic.Lib.ValueLayout

noncomputable section

namespace Cert.Proto.Body

open Idealize.ShloMosaic Idealize.ShloMosaic.ValueIdx Cert.KernelIdeal Cert.KernelIdeal.Gen Cert.Proto

/-- The reduced index a with column k put back is (a, k). -/
theorem lift_row (a : Fin 1024) (k : Fin (S1024x1024.size 1)) :
    reduces_S1024x1024_S1024.lift (ix1 a) k = ix2 a (⟨k.val, k.isLt⟩ : Fin 1024) :=
  funext fun c => Fin.ext (by fin_cases c <;> rfl)

/-- A block's row sums, as a column spread over the columns: at (a, b) the sum of row a. -/
theorem rowSum_apply (x : FVec Ideal S1024x1024 .f32) (a b : Fin 1024) :
    broadcastTo S1024x1024 (shapeCast S1024x1 (multiReduction .add [1] S1024 x 0x00000000#32 reduces_S1024x1024_S1024 (.inl rfl) rfl)
      shapeCasts_S1024_S1024x1) broadcasts_S1024x1_S1024x1024 (ix2 a b) = ∑ k : Fin 1024, x (ix2 a k) := by
  refine (broadcastTo_shapeCast_column_apply _ shapeCasts_S1024_S1024x1 broadcasts_S1024x1_S1024x1024 a b).trans ?_
  refine (Ideal.multiReduction_add_single x 0x00000000#32 reduces_S1024x1024_S1024 (.inl rfl) rfl (ix1 a)).trans ?_
  exact Finset.sum_congr rfl fun k _ => congrArg x (lift_row a k)

/-- A block's row maxima, as a column spread over the columns: at (a, b) the maximum of row a, folded from minus
    infinity. -/
theorem rowMax_apply (x : FVec Ideal S1024x1024 .f32) (a b : Fin 1024) :
    broadcastTo S1024x1024 (shapeCast S1024x1 (multiReduction .maximumf [1] S1024 x 0xFF800000#32 reduces_S1024x1024_S1024 (.inl rfl) rfl)
      shapeCasts_S1024_S1024x1) broadcasts_S1024x1_S1024x1024 (ix2 a b) = rowMax (fun k => x (ix2 a k)) := by
  refine (broadcastTo_shapeCast_column_apply _ shapeCasts_S1024_S1024x1 broadcasts_S1024x1_S1024x1024 a b).trans ?_
  refine (Ideal.multiReduction_maximumf_single x 0xFF800000#32 reduces_S1024x1024_S1024 (.inl rfl) rfl (ix1 a)).trans ?_
  have hf : (x ∘ reduces_S1024x1024_S1024.lift (ix1 a)) = fun k : Fin 1024 => x (ix2 a k) :=
    funext fun k => congrArg x (lift_row a k)
  exact congrArg (fun f => Finset.fold max negInf f (Finset.univ : Finset (Fin 1024))) hf

/-- The left operand's index at output (a, b) and contraction index q: row a. -/
theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The right operand's index at output (a, b) and contraction index q: row b. -/
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The product of two blocks contracting the second axis of both, into a zero accumulator: at (a, b) the inner
    product of row a of the left block with row b of the right block. -/
theorem rowsDot_apply (l r : FVec Ideal S1024x1024 .bf16) (a b : Fin 1024) :
    matmul dot_S1024x1024_S1024x1024_S1024x1024_1_1_0_0_n_n none l r (constant S1024x1024 .f32 0x00000000#32) (ix2 a b)
      = ∑ k : Fin 1024, l (ix2 a k) * r (ix2 b k) := by
  refine (Ideal.matmul_constant_zero_apply dot_S1024x1024_S1024x1024_S1024x1024_1_1_0_0_n_n none l r (ix2 a b)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 a b)
      ((contrEquiv1 dot_S1024x1024_S1024x1024_S1024x1024_1_1_0_0_n_n 1024 rfl rfl).symm k) = ix2 a k :=
    funext fun c => Fin.ext (by
      match c with
      | ⟨0, _⟩ => exact lhs_0 _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 a b)
      ((contrEquiv1 dot_S1024x1024_S1024x1024_S1024x1024_1_1_0_0_n_n 1024 rfl rfl).symm k) = ix2 b k :=
    funext fun c => Fin.ext (by
      match c with
      | ⟨0, _⟩ => exact rhs_0 _ _
      | ⟨1, _⟩ => exact (dot_S1024x1024_S1024x1024_S1024x1024_1_1_0_0_n_n.rhsIdx_val_of_single rfl _ _).trans hk)
  rw [el, er]

/-- The one row spread over the 1024 rows: at (a, b) its entry b. -/
theorem rowSpread_apply (v : FVec Ideal S1x1024 .f32) (a b : Fin 1024) :
    broadcastTo S1024x1024 (shapeCast S1x1024 v shapeCasts_S1x1024_S1x1024) broadcasts_S1x1024_S1024x1024 (ix2 a b)
      = v (ix2 (0 : Fin 1) b) := by
  refine (broadcastTo_1b_ab_apply _ broadcasts_S1x1024_S1024x1024 a b).trans ?_
  rw [shapeCast_self]

/-- The block of scores: twice the products, less the query rows' squared lengths, less the prototypes' squared
    lengths. -/
def negDist (v0 : FVec Ideal S1024x1024 .f32) (v1 : FVec Ideal S1024x1024 .bf16) (v3 : FVec Ideal S1x1024 .f32) :
    FVec Ideal S1024x1024 .f32 :=
  subf (subf (mulf (broadcast S1024x1024 (Scalar.ofBits .f32 0x40000000#32))
        (matmul dot_S1024x1024_S1024x1024_S1024x1024_1_1_0_0_n_n none (truncf .bf16 v0 bitsLt_bf16_f32)
          (shapeCast S1024x1024 v1 shapeCasts_S1024x1024_S1024x1024) (constant S1024x1024 .f32 0x00000000#32)))
      (broadcastTo S1024x1024 (shapeCast S1024x1 (multiReduction .add [1] S1024 (mulf v0 v0) 0x00000000#32 reduces_S1024x1024_S1024 (.inl rfl) rfl)
        shapeCasts_S1024_S1024x1) broadcasts_S1024x1_S1024x1024))
    (broadcastTo S1024x1024 (shapeCast S1x1024 v3 shapeCasts_S1x1024_S1x1024) broadcasts_S1x1024_S1024x1024)

/-- A block of scores, each less its row's maximum, exponentiated. -/
def expBlock (x : FVec Ideal S1024x1024 .f32) : FVec Ideal S1024x1024 .f32 :=
  exp (subf x (broadcastTo S1024x1024 (shapeCast S1024x1 (multiReduction .maximumf [1] S1024 x 0xFF800000#32 reduces_S1024x1024_S1024 (.inl rfl) rfl)
    shapeCasts_S1024_S1024x1) broadcasts_S1024x1_S1024x1024))

/-- A block's softmax along its rows. -/
def softBlock (x : FVec Ideal S1024x1024 .f32) : FVec Ideal S1024x1024 .f32 :=
  divf (expBlock x) (broadcastTo S1024x1024 (shapeCast S1024x1 (multiReduction .add [1] S1024 (expBlock x) 0x00000000#32 reduces_S1024x1024_S1024 (.inl rfl) rfl)
    shapeCasts_S1024_S1024x1) broadcasts_S1024x1_S1024x1024)

/-- The body's stored value is the row softmax of the block of scores: the same operations, grouped. -/
theorem pay_eq (v0 : FVec Ideal S1024x1024 .f32) (v1 : FVec Ideal S1024x1024 .bf16) (v3 : FVec Ideal S1x1024 .f32) :
    k0_pay1 (F := Ideal) v0 v1 v3 = softBlock (negDist v0 v1 v3) := rfl

/-- The score of block row a against prototype row j, from the three blocks the body loads. -/
def blockScore (v0 : PArr) (v1 : PArr) (v3 : RowArr) (a j : Fin 1024) : EReal :=
  (two * (∑ d : Fin 1024, v0 (ix2 a d) * v1 (ix2 j d)) - ∑ d : Fin 1024, v0 (ix2 a d) * v0 (ix2 a d)) - v3 (ix2 (0 : Fin 1) j)

theorem negDist_apply (v0 : FVec Ideal S1024x1024 .f32) (v1 : FVec Ideal S1024x1024 .bf16) (v3 : FVec Ideal S1x1024 .f32)
    (a j : Fin 1024) : negDist v0 v1 v3 (ix2 a j) = blockScore v0 v1 v3 a j := by
  unfold negDist blockScore
  rw [subf_apply, subf_apply, mulf_apply, rowSum_apply, rowSpread_apply, rowsDot_apply, shapeCast_self]
  rfl

theorem expBlock_apply (x : FVec Ideal S1024x1024 .f32) (a b : Fin 1024) :
    expBlock x (ix2 a b) = Ideal.exp (x (ix2 a b) - rowMax (fun k => x (ix2 a k))) := by
  unfold expBlock
  show Ideal.exp (x (ix2 a b) - _) = _
  rw [rowMax_apply]

theorem softBlock_apply (x : FVec Ideal S1024x1024 .f32) (a b : Fin 1024) :
    softBlock x (ix2 a b) = soft (fun k => x (ix2 a k)) b := by
  unfold softBlock
  rw [divf_apply, rowSum_apply, expBlock_apply]
  simp only [expBlock_apply]
  rfl

/-- The body's stored value at (a, b): the softmax at column b of the scores of block row a. -/
theorem pay_apply (v0 : FVec Ideal S1024x1024 .f32) (v1 : FVec Ideal S1024x1024 .bf16) (v3 : FVec Ideal S1x1024 .f32)
    (a b : Fin 1024) : k0_pay1 (F := Ideal) v0 v1 v3 (ix2 a b) = soft (blockScore v0 v1 v3 a) b := by
  rw [pay_eq, softBlock_apply]
  exact congrArg (fun f => soft f b) (funext fun k => negDist_apply v0 v1 v3 a k)

end Cert.Proto.Body

end
-- ==== Proof.Point.lean ====
/-
  One grid point against the whole result. Suppose the three blocks the body loads at point T are what they should
  be: the query block is rows 1024 T .. 1024 T + 1023 of q, the prototype block is p, and the row of squared lengths
  holds |p_j|^2 at j. Then what the body stores at (a, b) is the result array at (1024 T + a, b): the block's scores
  are the kernel-arranged scores of those query rows, and the softmax along the row is the same function of them.
-/
import proofs.«124861_j13005160972748_2_alg».proof.Proof.Payload

noncomputable section

namespace Cert.Proto.Body

open Idealize.ShloMosaic Idealize.ShloMosaic.ValueIdx Cert.KernelIdeal Cert.KernelIdeal.Gen Cert.Proto

theorem point_eq (q : QArr) (p : PArr) (v0 : FVec Ideal S1024x1024 .f32) (v1 : FVec Ideal S1024x1024 .bf16)
    (v3 : FVec Ideal S1x1024 .f32) (T : Nat) (hT : T < 16)
    (h0 : ∀ (a d : Fin 1024), v0 (ix2 a d) = q (ix2 (⟨1024 * T + a.val, by have := a.isLt; omega⟩ : Fin 16384) d))
    (h1 : ∀ (j d : Fin 1024), v1 (ix2 j d) = p (ix2 j d))
    (h3 : ∀ j : Fin 1024, v3 (ix2 (0 : Fin 1) j) = psq p j)
    (y : S1024x1024.Idx) (i : (⟨2, ![16384, 1024]⟩ : Shape).Idx)
    (hi0 : (i 0).val = 1024 * T + (y 0).val) (hi1 : (i 1).val = (y 1).val) :
    k0_pay1 (F := Ideal) v0 v1 v3 y = G q p i := by
  obtain ⟨a, b, rfl⟩ : ∃ (a b : Fin 1024), y = ix2 a b := ⟨y 0, y 1, eq_ix2 y⟩
  have hlt : 1024 * T + a.val < 16384 := by have := a.isLt; omega
  obtain ⟨n, j, rfl⟩ : ∃ (n : Fin 16384) (j : Fin 1024), i = ix2 n j := ⟨i 0, i 1, eq_ix2 i⟩
  obtain rfl : n = ⟨1024 * T + a.val, hlt⟩ := Fin.ext hi0
  obtain rfl : j = b := Fin.ext hi1
  rw [pay_apply, G_apply]
  refine congrArg (fun f => soft f j) (funext fun k => ?_)
  unfold blockScore scoreK dot qsq
  rw [h3]
  simp only [h0, h1]

end Cert.Proto.Body

end
-- ==== Proof.Arr.lean ====
/-
  From the grid's blocks to the whole result array. The grid has 16 points. At point t the query window holds rows
  1024 t .. 1024 t + 1023 of the queries and the output window the same rows of the result; the prototype window
  holds all the prototypes (a change of float format of the second argument, which changes no value) and the third
  window the one row of squared lengths that the program computes before the launch: sum_d p(j, d)^2 at column j,
  a sum over the feature axis viewed as one row. So what point t writes back is block t of the result function
  `G` of the two arguments, the 16 blocks cover the array, and after the run the result array is `G`.
-/
import proofs.«124861_j13005160972748_2_alg».proof.Proof.Gen.KernelIdeal.Value
import proofs.«124861_j13005160972748_2_alg».proof.Proof.Point
import Idealize.ShloMosaic.Lib.Pipeline.Value
import Idealize.ShloMosaic.Lib.StableHlo.Run
import Idealize.ShloMosaic.Lib.IdealHost
import Idealize.ShloMosaic.Lib.ValueLayout

noncomputable section

namespace Cert.Proto.Arr

open Cert.KernelIdeal Cert.KernelIdeal.Gen Cert.KernelIdeal.Value Idealize.ShloMosaic Idealize.ShloMosaic.TcCoe Idealize.SL.Sem
open Idealize.ShloMosaic.StableHlo Idealize.ShloMosaic.ValueIdx Cert.Proto Cert.Proto.Body
open Idealize.ShloMosaic.Pipeline (Dat)

variable (m : (ℓ : Loc nD τ sig) → Buf (Elt Ideal) ℓ) (ρ : Dev nD → PrngReg)

/-- The two argument arrays as launched on core c. -/
abbrev qArr (c : Dev nD) : QArr := m ((c : Thread nD τ).loc main_arg0)
abbrev pArr (c : Dev nD) : PArr := m ((c : Thread nD τ).loc main_arg1)

theorem hz : (![0, 0] : Fin 2 → Nat) = fun _ => 0 := funext fun a => by fin_cases a <;> rfl

/-- The block index of each window at each of the 16 points: the query and the output windows move down one
    block of rows per point, the other two stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 16 := by
  have h := t.isLt
  have hN : cfg0.N = 16 := N_0
  omega

/-! ## The arrays the region finds -/

/-- The second window's array: the prototypes in the narrower format, entry for entry the prototypes. -/
theorem V_protoLow (c : Dev nD) : (V m c main_v3 : S1024x1024.Idx → EReal) = pArr m c := by
  have e : @Eq (S1024x1024.Idx → EReal) (V m c main_v3)
      (truncf (F := Ideal) .bf16 (m ((c : Thread nD τ).loc main_arg1) : FVec Ideal S1024x1024 .f32) bitsLt_bf16_f32) := by
    dsimp only [Gen.V, Gen.hostOps0]; after_results
  exact e

/-- The third window's array at column j: the squared length of prototype row j. -/
theorem V_lens_apply (c : Dev nD) (j : Fin 1024) :
    (V m c main_v2 : S1x1024.Idx → EReal) (ix2 (0 : Fin 1) j) = psq (pArr m c) j := by
  have e : @Eq (S1x1024.Idx → EReal) (V m c main_v2)
      (shapeCast S1x1024 (Host.reduceAdd (F := Ideal)
          (mulf (m ((c : Thread nD τ).loc main_arg1) : FVec Ideal S1024x1024 .f32) (m ((c : Thread nD τ).loc main_arg1)))
          (constant (F := Ideal) S_ .f32 0x00000000#32) reducesTo_S1024x1024_S1024_d1 h_S_) shapeCasts_S1024_S1x1024) := by
    dsimp only [Gen.V, Gen.hostOps0]; after_results; rfl
  rw [e]
  refine (shapeCast_a_1a_apply _ shapeCasts_S1024_S1x1024 (0 : Fin 1) j).trans ?_
  rw [hostReduceAdd_apply, Ideal.hostReduceAdd_single reducesTo_S1024x1024_S1024_d1 reduces_S1024x1024_S1024]
  show Ideal.ofBits .f32 0x00000000#32 + _ = _
  rw [zero_eq, zero_add]
  unfold psq
  exact Finset.sum_congr rfl fun k _ => congrArg (fun i => pArr m c i * pArr m c i) (lift_row j k)

/-! ## The blocks at a point -/

/-- The query window's block at point t is rows 1024 t .. 1024 t + 1023 of the queries. -/
theorem q_block (c : Dev nD) (t : Fin cfg0.N) (a d : Fin 1024) :
    (iblk m c 0 t : Vec Ideal S1024x1024 .f32) (ix2 a d)
      = qArr m c (ix2 (⟨1024 * t.val + a.val, by have := a.isLt; have := t_lt t; omega⟩ : Fin 16384) d) := by
  obtain ⟨e0, e1, -⟩ := idx_facts t
  unfold iblk
  rw [View.read_apply]
  show V m c main_arg0 _ = _
  rw [V_main_arg0]
  refine congrArg (m ((c : Thread nD τ).loc main_arg0)) (funext fun ax => Fin.ext ?_)
  match ax with
  | ⟨0, _⟩ => show win0_0.index t (0 : Fin 2) * 1024 + 1 * a.val = 1024 * t.val + a.val; rw [e0]; omega
  | ⟨1, _⟩ => show win0_0.index t (1 : Fin 2) * 1024 + 1 * d.val = d.val; rw [e1]; omega

/-- The prototype window's block at every point is the whole array of prototypes. -/
theorem p_block (c : Dev nD) (t : Fin cfg0.N) (j d : Fin 1024) :
    (iblk m c 1 t : Vec Ideal S1024x1024 .bf16) (ix2 j d) = pArr m c (ix2 j d) := by
  obtain ⟨-, -, e0, e1, -⟩ := idx_facts t
  unfold iblk
  rw [View.read_apply]
  show (V m c main_v3 : S1024x1024.Idx → EReal) _ = _
  refine (congrFun (V_protoLow m c) _).trans ?_
  refine congrArg (pArr m c) (funext fun ax => Fin.ext ?_)
  match ax with
  | ⟨0, _⟩ => show win0_1.index t (0 : Fin 2) * 1024 + 1 * j.val = j.val; rw [e0]; omega
  | ⟨1, _⟩ => show win0_1.index t (1 : Fin 2) * 1024 + 1 * d.val = d.val; rw [e1]; omega

/-- The third window's block at every point is the row of squared lengths. -/
theorem len_block (c : Dev nD) (t : Fin cfg0.N) (j : Fin 1024) :
    (iblk m c 2 t : Vec Ideal S1x1024 .f32) (ix2 (0 : Fin 1) j) = psq (pArr m c) j := by
  obtain ⟨-, -, -, -, e0, e1, -⟩ := idx_facts t
  unfold iblk
  rw [View.read_apply]
  show (V m c main_v2 : S1x1024.Idx → EReal) _ = _
  refine Eq.trans (congrArg (V m c main_v2 : S1x1024.Idx → EReal) (funext fun ax => Fin.ext ?_)) (V_lens_apply m c j)
  match ax with
  | ⟨0, _⟩ => show win0_2.index t (0 : Fin 2) * 1 + 1 * 0 = 0; rw [e0]
  | ⟨1, _⟩ => show win0_2.index t (1 : Fin 2) * 1024 + 1 * j.val = j.val; rw [e1]; omega

/-! ## What a point writes back, the cover, the array -/

/-- What point t writes back is block t of the result function of the two arguments. -/
theorem flushed_eq (c : Dev nD) (t : Fin cfg0.N) :
    (dats m 0 c).flushed 3 t = ((cfg0.win 3).blk t).view.read (Elt Ideal) (G (qArr m c) (pArr m c)) := by
  rw [Value.flushed3]
  unfold out0_3
  rw [View.canon_unit_zero hz]
  simp only [View.ld_unit_zero (S := S1024x1024) hz, View.ld_unit_zero (S := S1x1024) hz]
  obtain ⟨-, -, -, -, -, -, e0, e1⟩ := idx_facts t
  funext y
  show k0_pay1 (F := Ideal) (iblk m c 0 t) (iblk m c 1 t) (iblk m c 2 t) y
    = G (qArr m c) (pArr m c) (((cfg0.win 3).blk t).view.emb y)
  refine point_eq (qArr m c) (pArr m c) (iblk m c 0 t) (iblk m c 1 t) (iblk m c 2 t) t.val (t_lt t)
    (q_block m c t) (p_block m c t) (len_block m c t) y _ ?_ ?_
  · show win0_3.index t (0 : Fin 2) * 1024 + 1 * (y 0).val = 1024 * t.val + (y 0).val; rw [e0]; omega
  · show win0_3.index t (1 : Fin 2) * 1024 + 1 * (y 1).val = (y 1).val; rw [e1]; omega

/-- An index of the result array is in point t's block iff each coordinate is in the block's range on its axis. -/
theorem mem_blk (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Every index of the result array is in the block of the point its row falls in: row r is in block r / 1024. -/
theorem cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 16 := N_0
  have hq : (i 0).val / 1024 < cfg0.N := by rw [hN]; omega
  obtain ⟨-, -, -, -, -, -, e0, e1⟩ := idx_facts ⟨(i 0).val / 1024, hq⟩
  refine ⟨⟨(i 0).val / 1024, hq⟩, flush0_3 _, ?_⟩
  rw [mem_blk]
  intro a
  match a with
  | ⟨0, _⟩ =>
    show win0_3.index ⟨(i 0).val / 1024, hq⟩ (0 : Fin 2) * 1024 ≤ (i 0).val
      ∧ (i 0).val < win0_3.index ⟨(i 0).val / 1024, hq⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, hq⟩ (1 : Fin 2) * 1024 ≤ (i 1).val
      ∧ (i 1).val < win0_3.index ⟨(i 0).val / 1024, hq⟩ (1 : Fin 2) * 1024 + 1024
    rw [e1]
    omega

/-- After the run the result array is the result function of the two arguments. -/
theorem final (c : Dev nD) : (dats m 0 c).arrAt 3 cfg0.N = G (qArr m c) (pArr m c) :=
  (dats m 0 c).arrAt_eq_of_cover 3 (G (qArr m c) (pArr m c)) (fun t _ => flushed_eq m c t) cover

/-- The kernel's run: every weakly fair execution ends with the result array at `G` of the arguments, the arguments
    unchanged. -/
theorem run : θ_run defs (onTc (τ := τ) (main (F := Ideal))) ⟨m, fun _ => 0, ρ⟩ fun r => ∀ c : Dev nD,
      r.2.mem ((c : Thread nD τ).loc main_v4) = G (qArr m c) (pArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Proto.Arr

end
-- ==== Proof.lean ====
/-
  Nearest-prototype probabilities. The arguments are q, 16384 query rows, and p, 1024 prototype rows, of 1024
  features each. Row n of the result is the softmax over j of minus the squared distance between q_n and p_j, the
  squared distance expanded as |q_n|^2 - 2 (q_n . p_j) + |p_j|^2.

  The kernel walks the query rows in 16 blocks of 1024. For a block it forms all 1024 x 1024 inner products with the
  prototypes in one product, the rows' squared lengths by a sum along each row, takes the prototypes' squared lengths
  (computed once before the launch) as a row, forms the score as (2 (q_n . p_j) - |q_n|^2) - |p_j|^2, and along each
  row subtracts the maximum, exponentiates and divides by the row's sum. The reference forms
  (|q_n|^2 - 2 (q_n . p_j)) + |p_j|^2 over the whole arrays, negates it, and applies the same softmax. With exact
  arithmetic on the extended reals the narrower float format the kernel multiplies in changes no value, a sum does
  not depend on its order or on its zero starting value, and the maximum does not depend on being folded from minus
  infinity once or twice. What is left is the sign rearrangement of the score, which fails when infinities meet
  and holds for real numbers; the precondition says every entry of q and p is finite, so the three sums are real.

  Proof/Spec.lean states the result function and the rearrangement law; Proof/RefSide.lean reads the reference at an
  index; Proof/Payload.lean and Proof/Point.lean read the kernel's body at an index, at one grid point;
  Proof/Arr.lean goes from the 16 blocks to the whole array; Proof/Finite.lean turns the precondition into
  "every entry is a real number". Here the five claims are put together.
-/
import proofs.«124861_j13005160972748_2_alg».proof.Defs
import proofs.«124861_j13005160972748_2_alg».proof.Proof.Gen.Kernel
import proofs.«124861_j13005160972748_2_alg».proof.Proof.Gen.Kernel.Skeleton
import proofs.«124861_j13005160972748_2_alg».proof.Proof.Gen.Kernel.Launch
import proofs.«124861_j13005160972748_2_alg».proof.Proof.Gen.Kernel.Points
import proofs.«124861_j13005160972748_2_alg».proof.Proof.Gen.Kernel.Frame
import proofs.«124861_j13005160972748_2_alg».proof.Proof.Gen.KernelIdeal
import proofs.«124861_j13005160972748_2_alg».proof.Proof.Gen.KernelIdeal.Skeleton
import proofs.«124861_j13005160972748_2_alg».proof.Proof.Gen.KernelIdeal.Launch
import proofs.«124861_j13005160972748_2_alg».proof.Proof.Gen.KernelIdeal.Points
import proofs.«124861_j13005160972748_2_alg».proof.Proof.Gen.KernelIdeal.Frame
import proofs.«124861_j13005160972748_2_alg».proof.Proof.Gen.ReferenceIdeal
import proofs.«124861_j13005160972748_2_alg».proof.Proof.Gen.Pre_finite_inputs
import proofs.«124861_j13005160972748_2_alg».proof.Proof.Gen.KernelIdeal.Value
import proofs.«124861_j13005160972748_2_alg».proof.Proof.Gen.ReferenceIdeal.Run
import proofs.«124861_j13005160972748_2_alg».proof.Proof.Gen.ReferenceIdeal.Read
import proofs.«124861_j13005160972748_2_alg».proof.Proof.Spec
import proofs.«124861_j13005160972748_2_alg».proof.Proof.RefSide
import proofs.«124861_j13005160972748_2_alg».proof.Proof.Finite
import proofs.«124861_j13005160972748_2_alg».proof.Proof.Arr
import Idealize.ShloMosaic.Adequacy
import Idealize.ShloMosaic.Init

noncomputable section

namespace Cert.Proof

open Idealize.ShloMosaic Idealize.ShloMosaic.TcCoe Idealize.SL.Sem Cert.Proto

/-- Each program runs to the end without a fault and leaves its two arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From arguments that agree, the kernel's result array ends at the softmax of the kernel-arranged scores and the
    reference's at the softmax of the reference-arranged scores; the entries being real, the two arrangements are
    one function, and so are their softmaxes. -/
theorem algebraic : Cert.algebraic_KernelIdeal_ReferenceIdeal := by
  intro m ρ m' ρ' hpre hagree
  refine ⟨fun c => G (Arr.qArr m c) (Arr.pArr m c), Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Ref.result_eq, (hagree c).1, (hagree c).2]
  obtain ⟨hq, hp⟩ := Finite.entries_real _ _ (hpre c)
  funext i
  exact congrArg (fun f => soft f (i 1)) (scoreR_eq_scoreK _ _ hq hp (i 0))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
